-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S8192x2048 .f32) (main_arg1 : FVec F S2048x2048 .f32) (main_arg2 : FVec F S2048x2048 .f32) (main_arg3 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S_ : Shape := ⟨0, ![]⟩
abbrev S1024x1024 : Shape := ⟨2, ![1024, 1024]⟩
abbrev S1024x512 : Shape := ⟨2, ![1024, 512]⟩

abbrev nBuf : Space → Nat
  | .hbm => 24
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .bf16⟩
  | .hbm, ⟨16, _⟩ => ⟨S8192x2048, .bf16⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | .hbm, ⟨23, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S2048x2048 : S_.BroadcastsInDim S2048x2048 (![] : Fin 0 → Fin S2048x2048.rank)
  bitsLt_bf16_f32 : FTy.bits .bf16 < FTy.bits .f32
  bcast_S_S8192x2048 : S_.BroadcastsInDim S8192x2048 (![] : Fin 0 → Fin S8192x2048.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .bf16 = 32 ∨ (Rect.block (s := S8192x2048) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x2048.size a
  hwx0_1 : ∀ i : grid0.Coords, EltTy.bits .bf16 = 32 ∨ (Rect.block (s := S8192x2048) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x2048.size a
  hwx0_2 : ∀ i : grid0.Coords, EltTy.bits .bf16 = 32 ∨ (Rect.block (s := S2048x2048) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S2048x2048.size a
  hwx0_3 : ∀ i : grid0.Coords, EltTy.bits .bf16 = 32 ∨ (Rect.block (s := S2048x2048) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x2048.size a
  hwx0_4 : ∀ i : grid0.Coords, EltTy.bits .f32 = 32 ∨ (Rect.block (s := S8192x2048) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.CaseValues.lean ====
/-
  What one grid point leaves in the three f32 blocks the body writes: the output block (the additive-path
  accumulator) and the two carried accumulators (the log-sum of the multiplicative path, and the gate logits).

  A point with reduction coordinate 0 first stores a zero block into each of the three, reads it back and adds the
  point's block product: it leaves `0 + x·w`, `0 + logx·w`, `0 + x·g`.  A point with reduction coordinate 1 adds its
  block product to what the point before left, and then overwrites the output block with the gated combination of the
  three sums.  Each is stated as the body's own payload term, for any float instance.
-/
import proofs.«151410_j52243982189021_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Nalu

open Cert.KernelIdeal Cert.KernelIdeal.Gen

variable {F : FTy → Type} [FloatOps F]

/-- The offset of a load or store of a whole block. -/
theorem hz : (![0, 0] : Fin 2 → Nat) = fun _ => 0 := funext fun a => by fin_cases a <;> rfl

/-! ## A point with reduction coordinate 0: reset, then the first block product -/

/-- The output block after the first reduction step: the additive-path product added to the stored zero block. -/
theorem first_out (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .f32) (h7 : a7.IsWhole) (a8 : Memref sig .tc .vmem S1024x512 .f32) (h8 : a8.IsWhole) (a9 : Memref sig .tc .vmem S1024x512 .f32) (h9 : a9.IsWhole) (hc0 : cond0_0 i) (hc1 : ¬cond0_1 i) (x0 : Vec F S1024x1024 .bf16) (x1 : Vec F S1024x1024 .bf16) (x2 : Vec F S1024x512 .bf16) (x3 : Vec F S1024x512 .bf16) :
    out0_A_4 c i a3 h3 a4 h4 a5 h5 a6 h6 a7 h7 a8 h8 a9 h9 hc0 hc1 x0 x1 x2 x3 = k0_pay7 x0 x2 k0_pay2 := by
  unfold out0_A_4
  rw [View.read_writes_eq_canon _ _ _ (cover0_A_4 c i a3 h3 a4 h4 a5 h5 a6 h6 a7 h7 a8 h8 a9 h9 hc0 hc1 x0 x1 x2 x3)]
  unfold kernelRun0_A
  dsimp only
  sl_unfold_words
  rw [View.canon_cons_unit_zero (S := S1024x512) hz, View.readCov_unit_zero (S := S1024x512) _ hz]
  simp only [View.readAt_eq_ld, h3.read_unread, h5.read_unread, View.ld_unit_zero (S := S1024x1024) hz, View.ld_unit_zero (S := S1024x512) hz]

/-- The log-sum accumulator after the first reduction step. -/
theorem first_logsum (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .f32) (h7 : a7.IsWhole) (a8 : Memref sig .tc .vmem S1024x512 .f32) (h8 : a8.IsWhole) (a9 : Memref sig .tc .vmem S1024x512 .f32) (h9 : a9.IsWhole) (hc0 : cond0_0 i) (hc1 : ¬cond0_1 i) (x0 : Vec F S1024x1024 .bf16) (x1 : Vec F S1024x1024 .bf16) (x2 : Vec F S1024x512 .bf16) (x3 : Vec F S1024x512 .bf16) :
    sout0_A_0 c i a3 h3 a4 h4 a5 h5 a6 h6 a7 h7 a8 h8 a9 h9 hc0 hc1 x0 x1 x2 x3 = k0_pay8 x1 x2 k0_pay3 := by
  unfold sout0_A_0
  rw [View.read_writes_eq_canon _ _ _ (scover0_A_0 c i a3 h3 a4 h4 a5 h5 a6 h6 a7 h7 a8 h8 a9 h9 hc0 hc1 x0 x1 x2 x3)]
  unfold kernelRun0_A
  dsimp only
  sl_unfold_words
  rw [View.canon_cons_unit_zero (S := S1024x512) hz, View.readCov_unit_zero (S := S1024x512) _ hz]
  simp only [View.readAt_eq_ld, h4.read_unread, h5.read_unread, View.ld_unit_zero (S := S1024x1024) hz, View.ld_unit_zero (S := S1024x512) hz]

/-- The gate-logit accumulator after the first reduction step. -/
theorem first_gate (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .f32) (h7 : a7.IsWhole) (a8 : Memref sig .tc .vmem S1024x512 .f32) (h8 : a8.IsWhole) (a9 : Memref sig .tc .vmem S1024x512 .f32) (h9 : a9.IsWhole) (hc0 : cond0_0 i) (hc1 : ¬cond0_1 i) (x0 : Vec F S1024x1024 .bf16) (x1 : Vec F S1024x1024 .bf16) (x2 : Vec F S1024x512 .bf16) (x3 : Vec F S1024x512 .bf16) :
    sout0_A_1 c i a3 h3 a4 h4 a5 h5 a6 h6 a7 h7 a8 h8 a9 h9 hc0 hc1 x0 x1 x2 x3 = k0_pay9 x0 x3 k0_pay4 := by
  unfold sout0_A_1
  rw [View.read_writes_eq_canon _ _ _ (scover0_A_1 c i a3 h3 a4 h4 a5 h5 a6 h6 a7 h7 a8 h8 a9 h9 hc0 hc1 x0 x1 x2 x3)]
  unfold kernelRun0_A
  dsimp only
  sl_unfold_words
  rw [View.canon_cons_unit_zero (S := S1024x512) hz, View.readCov_unit_zero (S := S1024x512) _ hz]
  simp only [View.readAt_eq_ld, h3.read_unread, h6.read_unread, View.ld_unit_zero (S := S1024x1024) hz, View.ld_unit_zero (S := S1024x512) hz]

/-! ## A point with reduction coordinate 1: the second block product, then the gated combination -/

/-- The log-sum accumulator after the last reduction step: the second product added to what the step before left. -/
theorem last_logsum (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i) (x0 : Vec F S1024x1024 .bf16) (x1 : Vec F S1024x1024 .bf16) (x2 : Vec F S1024x512 .bf16) (x3 : Vec F S1024x512 .bf16) (xo4 : Vec F S1024x512 .f32) (xs0 : Vec F S1024x512 .f32) (xs1 : Vec F S1024x512 .f32) :
    sout0_B_0 c i a3 h3 a4 h4 a5 h5 a6 h6 a7 h7 a8 h8 a9 h9 hc0 hc1 x0 x1 x2 x3 xo4 xs0 xs1 = k0_pay8 x1 x2 xs0 := by
  unfold sout0_B_0
  rw [View.read_writes_eq_canon _ _ _ (scover0_B_0 c i a3 h3 a4 h4 a5 h5 a6 h6 a7 h7 a8 h8 a9 h9 hc0 hc1 x0 x1 x2 x3 xo4 xs0 xs1)]
  unfold kernelRun0_B
  dsimp only
  sl_unfold_words
  rw [View.canon_unit_zero hz]
  simp only [View.readAt_eq_ld, h4.read_unread, h5.read_unread, h8.read_unread, View.ld_unit_zero (S := S1024x1024) hz, View.ld_unit_zero (S := S1024x512) hz]

/-- The gate-logit accumulator after the last reduction step. -/
theorem last_gate (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i) (x0 : Vec F S1024x1024 .bf16) (x1 : Vec F S1024x1024 .bf16) (x2 : Vec F S1024x512 .bf16) (x3 : Vec F S1024x512 .bf16) (xo4 : Vec F S1024x512 .f32) (xs0 : Vec F S1024x512 .f32) (xs1 : Vec F S1024x512 .f32) :
    sout0_B_1 c i a3 h3 a4 h4 a5 h5 a6 h6 a7 h7 a8 h8 a9 h9 hc0 hc1 x0 x1 x2 x3 xo4 xs0 xs1 = k0_pay9 x0 x3 xs1 := by
  unfold sout0_B_1
  rw [View.read_writes_eq_canon _ _ _ (scover0_B_1 c i a3 h3 a4 h4 a5 h5 a6 h6 a7 h7 a8 h8 a9 h9 hc0 hc1 x0 x1 x2 x3 xo4 xs0 xs1)]
  unfold kernelRun0_B
  dsimp only
  sl_unfold_words
  rw [View.canon_unit_zero hz]
  simp only [View.readAt_eq_ld, h3.read_unread, h6.read_unread, h9.read_unread, View.ld_unit_zero (S := S1024x1024) hz, View.ld_unit_zero (S := S1024x512) hz]

/-- The output block after the last reduction step: the gated combination of the three completed sums — the
    additive sum (what the step before left in the output block plus the second product), the log-sum and the gate
    logits, each read back from the block the same step has just stored. -/
theorem last_out (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i) (x0 : Vec F S1024x1024 .bf16) (x1 : Vec F S1024x1024 .bf16) (x2 : Vec F S1024x512 .bf16) (x3 : Vec F S1024x512 .bf16) (xo4 : Vec F S1024x512 .f32) (xs0 : Vec F S1024x512 .f32) (xs1 : Vec F S1024x512 .f32) :
    out0_B_4 c i a3 h3 a4 h4 a5 h5 a6 h6 a7 h7 a8 h8 a9 h9 hc0 hc1 x0 x1 x2 x3 xo4 xs0 xs1
      = k0_pay1 (k0_pay9 x0 x3 xs1) (k0_pay7 x0 x2 xo4) (k0_pay8 x1 x2 xs0) := by
  unfold out0_B_4
  rw [View.read_writes_eq_canon _ _ _ (cover0_B_4 c i a3 h3 a4 h4 a5 h5 a6 h6 a7 h7 a8 h8 a9 h9 hc0 hc1 x0 x1 x2 x3 xo4 xs0 xs1)]
  unfold kernelRun0_B
  dsimp only
  sl_unfold_words
  rw [View.canon_cons_unit_zero (S := S1024x512) hz]
  simp only [View.readCov_unit_zero (S := S1024x512) _ hz, View.readAt_eq_ld, h3.read_unread, h4.read_unread, h5.read_unread,
    h6.read_unread, h7.read_unread, h8.read_unread, h9.read_unread, View.ld_unit_zero (S := S1024x1024) hz,
    View.ld_unit_zero (S := S1024x512) hz]

end Cert.KernelIdeal.Nalu
-- ==== Proof.SumSplit.lean ====
/-
  A sum over 2048 consecutive indices is the sum over the first 1024 plus the sum over the last 1024.
  Only commutativity and associativity of addition are used, so it holds on the extended reals with no
  finiteness assumption.
-/
import Mathlib.Algebra.BigOperators.Fin
import Mathlib.Data.EReal.Basic

namespace Cert.Nalu

open Finset

/-- Splitting a sum over `Fin 2048` into its two halves of length 1024. -/
theorem sum_halves {M : Type*} [AddCommMonoid M] (f : Fin 2048 → M) :
    ∑ k : Fin 2048, f k
      = (∑ k : Fin 1024, f ⟨k.val, by omega⟩) + ∑ k : Fin 1024, f ⟨1024 + k.val, by omega⟩ := by
  have h := Fin.sum_univ_add (a := 1024) (b := 1024) (fun i : Fin (1024 + 1024) => f ⟨i.val, by omega⟩)
  simpa [Fin.castAdd, Fin.natAdd] using h

end Cert.Nalu
-- ==== Proof.NaluSpec.lean ====
/-
  The NALU layer as one function of four arrays, over the extended reals:

      out r c = σ(∑ₖ X r k · Gt k c) · (∑ₖ X r k · W k c) + (1 − σ(∑ₖ X r k · Gt k c)) · exp(∑ₖ L r k · W k c)

  with `X` the inputs, `L` their logarithms `log(|x| + ε)`, `W` the weights `tanh(Ŵ) · σ(M̂)`, `Gt` the gate
  weights, and `σ z = 1 / (1 + e^(−z))`.  Each contraction runs over 2048 indices.

  A contraction accumulated in two steps — a zero accumulator plus the first 1024 products, then plus the last 1024 —
  is that sum: only `0 + a = a` and the regrouping of a sum are used, which hold on the extended reals with no
  finiteness assumption.
-/
import Idealize.ShloMosaic.PureOps.Ideal.Laws
import Idealize.ShloMosaic.Lib.ValueIdx
import proofs.«151410_j52243982189021_2_alg».proof.Proof.SumSplit

noncomputable section

namespace Cert.Nalu

open Idealize.ShloMosaic Idealize.ShloMosaic.ValueIdx

/-- The value of the f32 word `0x3F800000` (the float `1.0`). -/
abbrev one32 : EReal := Ideal.ofBits .f32 0x3F800000#32

/-- It is the number one. -/
theorem one32_eq : one32 = 1 := IdealRules.sign_bit.ideal_onePat .f32

/-- The NALU output at row `r`, column `c`. -/
def nalu (X L : Fin 8192 → Fin 2048 → EReal) (W Gt : Fin 2048 → Fin 2048 → EReal) (r : Fin 8192) (c : Fin 2048) : EReal :=
  Ideal.logistic (∑ k : Fin 2048, X r k * Gt k c) * (∑ k : Fin 2048, X r k * W k c)
    + (one32 - Ideal.logistic (∑ k : Fin 2048, X r k * Gt k c)) * Ideal.exp (∑ k : Fin 2048, L r k * W k c)

/-- The value of the f32 word `0x33D6BF95` (the float nearest `1e-7`): the ε of the log-input. -/
abbrev eps32 : EReal := Ideal.ofBits .f32 0x33D6BF95#32

/-- The log-input of one entry: `log(|x| + ε)`, with `|x| = max x (−x)`. -/
def logIn (x : EReal) : EReal := Ideal.log (max x (-x) + eps32)

/-- The weight of one entry: `tanh(ŵ) · (1 / (1 + e^(−m̂)))`. -/
def weight (wh mh : EReal) : EReal := Ideal.tanh wh * Ideal.div one32 (one32 + Ideal.exp (-mh))

/-- The NALU output array as a function of the four argument arrays: inputs [8192, 2048], and Ŵ, M̂ and the gate
    weights, each [2048, 2048]. -/
def naluOf (a0 : (⟨2, ![8192, 2048]⟩ : Shape).Idx → EReal) (a1 a2 a3 : (⟨2, ![2048, 2048]⟩ : Shape).Idx → EReal) :
    (⟨2, ![8192, 2048]⟩ : Shape).Idx → EReal :=
  fun i => nalu (fun r k => a0 (ix2 r k)) (fun r k => logIn (a0 (ix2 r k)))
    (fun k c => weight (a1 (ix2 k c)) (a2 (ix2 k c))) (fun k c => a3 (ix2 k c)) (i 0) (i 1)

/-- The first half of the contraction range, as an index of the whole range. -/
abbrev lo (k : Fin 1024) : Fin 2048 := ⟨k.val, by omega⟩
/-- The second half. -/
abbrev hi (k : Fin 1024) : Fin 2048 := ⟨1024 + k.val, by omega⟩

/-- A contraction accumulated in two steps of 1024 products from a zero accumulator is the whole contraction. -/
theorem two_steps (f : Fin 2048 → EReal) :
    (0 + ∑ k : Fin 1024, f (lo k)) + ∑ k : Fin 1024, f (hi k) = ∑ k : Fin 2048, f k := by
  rw [zero_add, sum_halves f]

end Cert.Nalu
-- ==== Proof.PayloadAt.lean ====
/-
  The body's payloads read at one entry (p, q) of a 1024 × 512 block, over the extended reals.

  An accumulate step's payload is the accumulator's entry plus the block product's entry, and a block product
  into a zero accumulator is the sum over the 1024 contraction indices k of lhs(p, k) · rhs(k, q).  The reset payloads
  are the zero block.  The last step's payload is the gated combination σ(g) · a + (1 − σ(g)) · exp(l) of the three
  entries it is given.
-/
import proofs.«151410_j52243982189021_2_alg».proof.Proof.Gen.KernelIdeal.Skeleton
import proofs.«151410_j52243982189021_2_alg».proof.Proof.NaluSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Nalu

open Cert.KernelIdeal Cert.KernelIdeal.Gen Cert.Nalu

/-! ## The block product at an entry -/

theorem lhs_row (j : S1024x512.Idx) (k : dot_S1024x1024_S1024x512_S1024x512_1_0_0_1_n_n.contr.Idx) :
    (dot_S1024x1024_S1024x512_S1024x512_1_0_0_1_n_n.lhsIdx j k 0).val = (j 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl

theorem rhs_col (j : S1024x512.Idx) (k : dot_S1024x1024_S1024x512_S1024x512_1_0_0_1_n_n.contr.Idx) :
    (dot_S1024x1024_S1024x512_S1024x512_1_0_0_1_n_n.rhsIdx j k 1).val = (j 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- A block product into the zero accumulator, at entry (p, q): the sum over k of lhs(p, k) · rhs(k, q). -/
theorem blockdot_apply (lhs : FVec Ideal S1024x1024 .bf16) (rhs : FVec Ideal S1024x512 .bf16) (p : Fin 1024) (q : Fin 512) :
    FloatOps.matmul dot_S1024x1024_S1024x512_S1024x512_1_0_0_1_n_n none lhs rhs (constant (F := Ideal) S1024x512 .f32 0x00000000#32) (ix2 p q)
      = ∑ k : Fin 1024, lhs (ix2 p k) * rhs (ix2 k q) := by
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_row _ _
    | ⟨1, _⟩ => exact (dot_S1024x1024_S1024x512_S1024x512_1_0_0_1_n_n.lhsIdx_val_of_single rfl _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (dot_S1024x1024_S1024x512_S1024x512_1_0_0_1_n_n.rhsIdx_val_of_single rfl _ _).trans hk
    | ⟨1, _⟩ => exact rhs_col _ _)
  rw [el, er]

/-! ## The three accumulate payloads -/

/-- The additive path's step. -/
theorem add_step_apply (x : Vec Ideal S1024x1024 .bf16) (w : Vec Ideal S1024x512 .bf16) (acc : Vec Ideal S1024x512 .f32)
    (p : Fin 1024) (q : Fin 512) :
    k0_pay7 x w acc (ix2 p q) = acc (ix2 p q) + ∑ k : Fin 1024, x (ix2 p k) * w (ix2 k q) := by
  unfold k0_pay7 k0_pay5 k0_pay6
  simp only [shapeCast_self]
  exact congrArg (acc (ix2 p q) + ·) (blockdot_apply x w p q)

/-- The multiplicative path's step (the log-sum). -/
theorem log_step_apply (lx : Vec Ideal S1024x1024 .bf16) (w : Vec Ideal S1024x512 .bf16) (acc : Vec Ideal S1024x512 .f32)
    (p : Fin 1024) (q : Fin 512) :
    k0_pay8 lx w acc (ix2 p q) = acc (ix2 p q) + ∑ k : Fin 1024, lx (ix2 p k) * w (ix2 k q) := by
  unfold k0_pay8 k0_pay6
  simp only [shapeCast_self]
  exact congrArg (acc (ix2 p q) + ·) (blockdot_apply lx w p q)

/-- The gate logits' step. -/
theorem gate_step_apply (x : Vec Ideal S1024x1024 .bf16) (g : Vec Ideal S1024x512 .bf16) (acc : Vec Ideal S1024x512 .f32)
    (p : Fin 1024) (q : Fin 512) :
    k0_pay9 x g acc (ix2 p q) = acc (ix2 p q) + ∑ k : Fin 1024, x (ix2 p k) * g (ix2 k q) := by
  unfold k0_pay9 k0_pay5
  simp only [shapeCast_self]
  exact congrArg (acc (ix2 p q) + ·) (blockdot_apply x g p q)

/-- The same three at any entry `j` of the block, with row `j 0` and column `j 1`. -/
theorem add_step_at (x : Vec Ideal S1024x1024 .bf16) (w : Vec Ideal S1024x512 .bf16) (acc : Vec Ideal S1024x512 .f32)
    (j : S1024x512.Idx) :
    k0_pay7 x w acc j = acc j + ∑ k : Fin 1024, x (ix2 (j 0) k) * w (ix2 k (j 1)) := by
  obtain ⟨p, q, rfl⟩ : ∃ (p : Fin 1024) (q : Fin 512), j = ix2 p q := ⟨j 0, j 1, eq_ix2 j⟩
  exact add_step_apply x w acc p q

theorem log_step_at (lx : Vec Ideal S1024x1024 .bf16) (w : Vec Ideal S1024x512 .bf16) (acc : Vec Ideal S1024x512 .f32)
    (j : S1024x512.Idx) :
    k0_pay8 lx w acc j = acc j + ∑ k : Fin 1024, lx (ix2 (j 0) k) * w (ix2 k (j 1)) := by
  obtain ⟨p, q, rfl⟩ : ∃ (p : Fin 1024) (q : Fin 512), j = ix2 p q := ⟨j 0, j 1, eq_ix2 j⟩
  exact log_step_apply lx w acc p q

theorem gate_step_at (x : Vec Ideal S1024x1024 .bf16) (g : Vec Ideal S1024x512 .bf16) (acc : Vec Ideal S1024x512 .f32)
    (j : S1024x512.Idx) :
    k0_pay9 x g acc j = acc j + ∑ k : Fin 1024, x (ix2 (j 0) k) * g (ix2 k (j 1)) := by
  obtain ⟨p, q, rfl⟩ : ∃ (p : Fin 1024) (q : Fin 512), j = ix2 p q := ⟨j 0, j 1, eq_ix2 j⟩
  exact gate_step_apply x g acc p q

/-! ## The reset payloads -/

theorem reset_out_apply (j : S1024x512.Idx) : k0_pay2 (F := Ideal) j = 0 := Ideal.ofBits_zero_f32
theorem reset_log_apply (j : S1024x512.Idx) : k0_pay3 (F := Ideal) j = 0 := by
  unfold k0_pay3; simp only [shapeCast_self]; exact Ideal.ofBits_zero_f32
theorem reset_gate_apply (j : S1024x512.Idx) : k0_pay4 (F := Ideal) j = 0 := by
  unfold k0_pay4; simp only [shapeCast_self]; exact Ideal.ofBits_zero_f32

/-! ## The gated combination -/

theorem combine_apply (g a l : Vec Ideal S1024x512 .f32) (j : S1024x512.Idx) :
    k0_pay1 g a l j = Ideal.logistic (g j) * a j + (one32 - Ideal.logistic (g j)) * Ideal.exp (l j) := by
  unfold k0_pay1
  simp only [shapeCast_self]
  rfl

/-! ## One entry of an output block after both reduction steps -/

/-- Entry `j` of the output block after the two reduction steps, when the blocks of the first step (primed) hold the
    first 1024 contraction indices and those of the second step the last 1024, of row `r` of the inputs `X` and
    log-inputs `L` and of column `c` of the weights `W` and gate weights `Gt`: the NALU output at (r, c).  Each of the
    three accumulators holds `(0 + first half) + second half`, which is the whole contraction. -/
theorem block_entry
    (x x' lx lx' : Vec Ideal S1024x1024 .bf16) (w w' g g' : Vec Ideal S1024x512 .bf16)
    (X L : Fin 8192 → Fin 2048 → EReal) (W Gt : Fin 2048 → Fin 2048 → EReal)
    (r : Fin 8192) (c : Fin 2048) (j : S1024x512.Idx)
    (hx' : ∀ k : Fin 1024, x' (ix2 (j 0) k) = X r (lo k)) (hx : ∀ k : Fin 1024, x (ix2 (j 0) k) = X r (hi k))
    (hl' : ∀ k : Fin 1024, lx' (ix2 (j 0) k) = L r (lo k)) (hl : ∀ k : Fin 1024, lx (ix2 (j 0) k) = L r (hi k))
    (hw' : ∀ k : Fin 1024, w' (ix2 k (j 1)) = W (lo k) c) (hw : ∀ k : Fin 1024, w (ix2 k (j 1)) = W (hi k) c)
    (hg' : ∀ k : Fin 1024, g' (ix2 k (j 1)) = Gt (lo k) c) (hg : ∀ k : Fin 1024, g (ix2 k (j 1)) = Gt (hi k) c) :
    k0_pay1 (k0_pay9 x g (k0_pay9 x' g' (k0_pay4 (F := Ideal)))) (k0_pay7 x w (k0_pay7 x' w' (k0_pay2 (F := Ideal))))
        (k0_pay8 lx w (k0_pay8 lx' w' (k0_pay3 (F := Ideal)))) j
      = nalu X L W Gt r c := by
  rw [combine_apply, gate_step_at, gate_step_at, reset_gate_apply, add_step_at, add_step_at, reset_out_apply,
    log_step_at, log_step_at, reset_log_apply]
  simp only [hx', hx, hl', hl, hw', hw, hg', hg]
  rw [two_steps (fun k => X r k * Gt k c), two_steps (fun k => X r k * W k c), two_steps (fun k => L r k * W k c)]
  rfl

end Cert.KernelIdeal.Nalu
-- ==== Proof.Blocks.lean ====
/-
  What the kernel's four staged operands hold when the region is entered, and each of their blocks at a grid point
  read at explicit coordinates.

  Before the region the host computes, entry by entry: the inputs `x` (a change of float format, the identity on the
  extended reals), their log-inputs `log(|x| + ε)`, the weights `tanh(ŵ) · (1 / (1 + e^(−m̂)))`, and the gate weights.
  Grid point `t` of the 8 × 4 × 2 grid has row-block `t / 8`, column-block `(t / 2) % 4` and reduction step `t % 2`;
  the input windows' blocks at `t` are rows `1024·(t/8) + p`, contraction indices `1024·(t%2) + k` of the left operands,
  and contraction indices `1024·(t%2) + k`, columns `512·((t/2)%4) + q` of the right operands.
-/
import proofs.«151410_j52243982189021_2_alg».proof.Proof.Gen.KernelIdeal.Frame
import proofs.«151410_j52243982189021_2_alg».proof.Proof.NaluSpec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Nalu

open Cert.KernelIdeal Cert.KernelIdeal.Gen Cert.Nalu

variable (m : (ℓ : Loc nD τ sig) → Buf (Elt Ideal) ℓ)

/-! ## The staged arrays at region entry -/

/-- The inputs, through the format change. -/
theorem entry_inputs (c : Dev nD) :
    (V m c main_v10 : S8192x2048.Idx → EReal) = (m ((c : Thread nD τ).loc main_arg0) : S8192x2048.Idx → EReal) := by
  dsimp only [Gen.V, Gen.hostOps0]; after_results
  all_goals rfl

/-- The gate weights, through the format change. -/
theorem entry_gate (c : Dev nD) :
    (V m c main_v9 : S2048x2048.Idx → EReal) = (m ((c : Thread nD τ).loc main_arg3) : S2048x2048.Idx → EReal) := by
  dsimp only [Gen.V, Gen.hostOps0]; after_results
  all_goals rfl

/-- The log-inputs. -/
theorem entry_loginputs (c : Dev nD) :
    (V m c main_v15 : S8192x2048.Idx → EReal) = fun i => logIn ((m ((c : Thread nD τ).loc main_arg0) : S8192x2048.Idx → EReal) i) := by
  dsimp only [Gen.V, Gen.hostOps0]; after_results
  all_goals rfl

/-- The weights. -/
theorem entry_weights (c : Dev nD) :
    (V m c main_v8 : S2048x2048.Idx → EReal)
      = fun i => weight ((m ((c : Thread nD τ).loc main_arg1) : S2048x2048.Idx → EReal) i) ((m ((c : Thread nD τ).loc main_arg2) : S2048x2048.Idx → EReal) i) := by
  dsimp only [Gen.V, Gen.hostOps0]; after_results
  all_goals rfl

/-! ## The windows' block indices at a grid point -/

/-- Point `t` has row-block `t / 8`, column-block `(t / 2) % 4` and reduction step `t % 2`; each window's block index
    is the pair its index map selects. Decided over the 64 points. -/
theorem index_facts : ∀ t : Fin cfg0.N,
    win0_0.index t (0 : Fin 2) = t.val / 8 ∧ win0_0.index t (1 : Fin 2) = t.val % 2
    ∧ win0_1.index t (0 : Fin 2) = t.val / 8 ∧ win0_1.index t (1 : Fin 2) = t.val % 2
    ∧ win0_2.index t (0 : Fin 2) = t.val % 2 ∧ win0_2.index t (1 : Fin 2) = t.val / 2 % 4
    ∧ win0_3.index t (0 : Fin 2) = t.val % 2 ∧ win0_3.index t (1 : Fin 2) = t.val / 2 % 4
    ∧ win0_4.index t (0 : Fin 2) = t.val / 8 ∧ win0_4.index t (1 : Fin 2) = t.val / 2 % 4 :=
  (by decide +kernel : ∀ t : Fin grid0.N, _)

/-! ## The input blocks at explicit coordinates -/

/-- The inputs' block at point `t`: rows `1024·(t/8) + p`, contraction indices `1024·(t%2) + k` of the inputs. -/
theorem inputs_block_apply (c : Dev nD) (t : Fin cfg0.N) (y : S1024x1024.Idx) (r : Fin 8192) (k : Fin 2048)
    (hr : r.val = 1024 * (t.val / 8) + (y 0).val) (hk : k.val = 1024 * (t.val % 2) + (y 1).val) :
    (iblk m c 0 t : Vec Ideal S1024x1024 .bf16) y = (m ((c : Thread nD τ).loc main_arg0) : S8192x2048.Idx → EReal) (ix2 r k) := by
  obtain ⟨e00, e01, e10, e11, e20, e21, e30, e31, e40, e41⟩ := index_facts t
  unfold iblk
  rw [View.read_apply]
  show (V m c main_v10 : S8192x2048.Idx → EReal) _ = _
  rw [entry_inputs m c]
  show ((m ((c : Thread nD τ).loc main_arg0) : S8192x2048.Idx → EReal)) _ = ((m ((c : Thread nD τ).loc main_arg0) : S8192x2048.Idx → EReal)) (ix2 r k)
  congr 1
  funext a
  apply Fin.ext
  match a with
  | ⟨0, _⟩ => show win0_0.index t 0 * 1024 + 1 * (y 0).val = r.val; rw [e00, hr]; omega
  | ⟨1, _⟩ => show win0_0.index t 1 * 1024 + 1 * (y 1).val = k.val; rw [e01, hk]; omega

/-- The log-inputs' block at point `t`, likewise. -/
theorem loginputs_block_apply (c : Dev nD) (t : Fin cfg0.N) (y : S1024x1024.Idx) (r : Fin 8192) (k : Fin 2048)
    (hr : r.val = 1024 * (t.val / 8) + (y 0).val) (hk : k.val = 1024 * (t.val % 2) + (y 1).val) :
    (iblk m c 1 t : Vec Ideal S1024x1024 .bf16) y = logIn ((m ((c : Thread nD τ).loc main_arg0) : S8192x2048.Idx → EReal) (ix2 r k)) := by
  obtain ⟨e00, e01, e10, e11, e20, e21, e30, e31, e40, e41⟩ := index_facts t
  unfold iblk
  rw [View.read_apply]
  show (V m c main_v15 : S8192x2048.Idx → EReal) _ = _
  rw [entry_loginputs m c]
  show (fun i : S8192x2048.Idx => logIn ((m ((c : Thread nD τ).loc main_arg0) : S8192x2048.Idx → EReal) i)) _ = (fun i : S8192x2048.Idx => logIn ((m ((c : Thread nD τ).loc main_arg0) : S8192x2048.Idx → EReal) i)) (ix2 r k)
  congr 1
  funext a
  apply Fin.ext
  match a with
  | ⟨0, _⟩ => show win0_1.index t 0 * 1024 + 1 * (y 0).val = r.val; rw [e10, hr]; omega
  | ⟨1, _⟩ => show win0_1.index t 1 * 1024 + 1 * (y 1).val = k.val; rw [e11, hk]; omega

/-- The weights' block at point `t`: contraction indices `1024·(t%2) + k`, columns `512·((t/2)%4) + q`. -/
theorem weights_block_apply (c : Dev nD) (t : Fin cfg0.N) (y : S1024x512.Idx) (r : Fin 2048) (k : Fin 2048)
    (hr : r.val = 1024 * (t.val % 2) + (y 0).val) (hk : k.val = 512 * (t.val / 2 % 4) + (y 1).val) :
    (iblk m c 2 t : Vec Ideal S1024x512 .bf16) y = weight ((m ((c : Thread nD τ).loc main_arg1) : S2048x2048.Idx → EReal) (ix2 r k)) ((m ((c : Thread nD τ).loc main_arg2) : S2048x2048.Idx → EReal) (ix2 r k)) := by
  obtain ⟨e00, e01, e10, e11, e20, e21, e30, e31, e40, e41⟩ := index_facts t
  unfold iblk
  rw [View.read_apply]
  show (V m c main_v8 : S2048x2048.Idx → EReal) _ = _
  rw [entry_weights m c]
  show (fun i : S2048x2048.Idx => weight ((m ((c : Thread nD τ).loc main_arg1) : S2048x2048.Idx → EReal) i) ((m ((c : Thread nD τ).loc main_arg2) : S2048x2048.Idx → EReal) i)) _ = (fun i : S2048x2048.Idx => weight ((m ((c : Thread nD τ).loc main_arg1) : S2048x2048.Idx → EReal) i) ((m ((c : Thread nD τ).loc main_arg2) : S2048x2048.Idx → EReal) i)) (ix2 r k)
  congr 1
  funext a
  apply Fin.ext
  match a with
  | ⟨0, _⟩ => show win0_2.index t 0 * 1024 + 1 * (y 0).val = r.val; rw [e20, hr]; omega
  | ⟨1, _⟩ => show win0_2.index t 1 * 512 + 1 * (y 1).val = k.val; rw [e21, hk]; omega

/-- The gate weights' block at point `t`, likewise. -/
theorem gate_block_apply (c : Dev nD) (t : Fin cfg0.N) (y : S1024x512.Idx) (r : Fin 2048) (k : Fin 2048)
    (hr : r.val = 1024 * (t.val % 2) + (y 0).val) (hk : k.val = 512 * (t.val / 2 % 4) + (y 1).val) :
    (iblk m c 3 t : Vec Ideal S1024x512 .bf16) y = (m ((c : Thread nD τ).loc main_arg3) : S2048x2048.Idx → EReal) (ix2 r k) := by
  obtain ⟨e00, e01, e10, e11, e20, e21, e30, e31, e40, e41⟩ := index_facts t
  unfold iblk
  rw [View.read_apply]
  show (V m c main_v9 : S2048x2048.Idx → EReal) _ = _
  rw [entry_gate m c]
  show ((m ((c : Thread nD τ).loc main_arg3) : S2048x2048.Idx → EReal)) _ = ((m ((c : Thread nD τ).loc main_arg3) : S2048x2048.Idx → EReal)) (ix2 r k)
  congr 1
  funext a
  apply Fin.ext
  match a with
  | ⟨0, _⟩ => show win0_3.index t 0 * 1024 + 1 * (y 0).val = r.val; rw [e30, hr]; omega
  | ⟨1, _⟩ => show win0_3.index t 1 * 512 + 1 * (y 1).val = k.val; rw [e31, hk]; omega

end Cert.KernelIdeal.Nalu
-- ==== Proof.KernelValue.lean ====
/-
  The kernel's result array is the NALU function of the four argument arrays.

  Each output block (row-block i, column-block j) is visited at two consecutive grid points, an even one (reduction
  step 0) and the odd one after it (step 1), and is written back after the odd one only.  After the even point the
  three f32 blocks hold `0 + ` the first half of each contraction; the odd point adds the second half and stores the
  gated combination.  Entry (p, q) of what is written back is therefore the NALU output at row `1024·i + p`, column
  `512·j + q`; the 32 written-back blocks tile the [8192, 2048] array.
-/
import proofs.«151410_j52243982189021_2_alg».proof.Proof.Gen.KernelIdeal.Value
import proofs.«151410_j52243982189021_2_alg».proof.Proof.CaseValues
import proofs.«151410_j52243982189021_2_alg».proof.Proof.PayloadAt
import proofs.«151410_j52243982189021_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Nalu

open Cert.KernelIdeal Cert.KernelIdeal.Gen Cert.Nalu

variable (m : (ℓ : Loc nD τ sig) → Buf (Elt Ideal) ℓ) (ρ : Dev nD → PrngReg)

/-! ## The three blocks after each of the two steps -/

/-- After a point of reduction step 0: each block is its step's product added to the stored zero block. -/
theorem after_first (c : Dev nD) (t : Fin cfg0.N) (h0 : t.val % 2 = 0) :
    outsAt0 m c t.val t.isLt
      = (k0_pay7 (iblk m c 0 t) (iblk m c 2 t) (k0_pay2 (F := Ideal)), k0_pay8 (iblk m c 1 t) (iblk m c 2 t) (k0_pay3 (F := Ideal)),
          k0_pay9 (iblk m c 0 t) (iblk m c 3 t) (k0_pay4 (F := Ideal))) := by
  have h1 : ¬t.val % 2 = 1 := by omega
  rw [outsAt0_A m c t h0 h1]
  exact congrArg₂ Prod.mk (first_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
    (congrArg₂ Prod.mk (first_logsum c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (first_gate c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)))

/-- The point before a point of reduction step 1. -/
abbrev before (t : Fin cfg0.N) : Fin cfg0.N := ⟨t.val - 1, Nat.lt_of_le_of_lt (Nat.sub_le _ _) t.isLt⟩

/-- After a point of reduction step 1 the output block holds the gated combination of the three two-step sums. -/
theorem after_last (c : Dev nD) (t : Fin cfg0.N) (h1 : t.val % 2 = 1) :
    (outsAt0 m c t.val t.isLt).1
      = k0_pay1
          (k0_pay9 (iblk m c 0 t) (iblk m c 3 t) (k0_pay9 (iblk m c 0 (before t)) (iblk m c 3 (before t)) (k0_pay4 (F := Ideal))))
          (k0_pay7 (iblk m c 0 t) (iblk m c 2 t) (k0_pay7 (iblk m c 0 (before t)) (iblk m c 2 (before t)) (k0_pay2 (F := Ideal))))
          (k0_pay8 (iblk m c 1 t) (iblk m c 2 t) (k0_pay8 (iblk m c 1 (before t)) (iblk m c 2 (before t)) (k0_pay3 (F := Ideal)))) := by
  have h0 : ¬t.val % 2 = 0 := by omega
  have hb : (before t).val % 2 = 0 := by show (t.val - 1) % 2 = 0; omega
  have hp := after_first m c (before t) hb
  refine (congrArg Prod.fst (outsAt0_B m c t h0 h1)).trans ?_
  dsimp only
  refine (last_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2).trans ?_
  rw [show (outsAt0 m c (t.val - 1) (Nat.lt_of_le_of_lt (Nat.sub_le _ _) t.isLt)) = _ from hp]

/-! ## What is written back, and the whole array -/

/-- The kernel's result array. -/
abbrev result (c : Dev nD) : Buf (Elt Ideal) ((c : Thread nD τ).loc main_v16) :=
  naluOf (m ((c : Thread nD τ).loc main_arg0) : S8192x2048.Idx → EReal) (m ((c : Thread nD τ).loc main_arg1) : S2048x2048.Idx → EReal) (m ((c : Thread nD τ).loc main_arg2) : S2048x2048.Idx → EReal) (m ((c : Thread nD τ).loc main_arg3) : S2048x2048.Idx → EReal)

/-- What a writing-back point writes is its block of the NALU function. -/
theorem flushed_eq (c : Dev nD) (t : Fin cfg0.N) (hf : (cfg0.win 4).flush t = true) :
    (dats m 0 c).flushed 4 t = ((cfg0.win 4).blk t).view.read (Elt Ideal) (result m c) := by
  have h1 : t.val % 2 = 1 := (flush0_4 t).mp hf
  have hN : t.val < 64 := lt_of_lt_of_eq t.isLt N_0
  obtain ⟨e00, e01, e10, e11, e20, e21, e30, e31, e40, e41⟩ := index_facts t
  rw [Value.flushed4, after_last m c t h1]
  funext y
  rw [View.read_apply]
  have hr : ((((cfg0.win 4).blk t).view.emb y) 0).val = 1024 * (t.val / 8) + (y 0).val := by
    show win0_4.index t 0 * 1024 + 1 * (y 0).val = _; rw [e40]; omega
  have hc : ((((cfg0.win 4).blk t).view.emb y) 1).val = 512 * (t.val / 2 % 4) + (y 1).val := by
    show win0_4.index t 1 * 512 + 1 * (y 1).val = _; rw [e41]; omega
  refine block_entry (iblk m c 0 t) (iblk m c 0 (before t)) (iblk m c 1 t) (iblk m c 1 (before t))
    (iblk m c 2 t) (iblk m c 2 (before t)) (iblk m c 3 t) (iblk m c 3 (before t))
    (fun r k => (m ((c : Thread nD τ).loc main_arg0) : S8192x2048.Idx → EReal) (ix2 r k)) (fun r k => logIn ((m ((c : Thread nD τ).loc main_arg0) : S8192x2048.Idx → EReal) (ix2 r k)))
    (fun k c' => weight ((m ((c : Thread nD τ).loc main_arg1) : S2048x2048.Idx → EReal) (ix2 k c')) ((m ((c : Thread nD τ).loc main_arg2) : S2048x2048.Idx → EReal) (ix2 k c'))) (fun k c' => (m ((c : Thread nD τ).loc main_arg3) : S2048x2048.Idx → EReal) (ix2 k c'))
    ((((cfg0.win 4).blk t).view.emb y) 0) ((((cfg0.win 4).blk t).view.emb y) 1) y ?_ ?_ ?_ ?_ ?_ ?_ ?_ ?_
  · intro k
    exact inputs_block_apply m c (before t) (ix2 (y 0) k) _ (lo k) (by show _ = 1024 * ((t.val - 1) / 8) + (y 0).val; rw [hr]; omega)
      (by show k.val = 1024 * ((t.val - 1) % 2) + k.val; omega)
  · intro k
    exact inputs_block_apply m c t (ix2 (y 0) k) _ (hi k) (by show _ = 1024 * (t.val / 8) + (y 0).val; rw [hr])
      (by show 1024 + k.val = 1024 * (t.val % 2) + k.val; omega)
  · intro k
    exact loginputs_block_apply m c (before t) (ix2 (y 0) k) _ (lo k) (by show _ = 1024 * ((t.val - 1) / 8) + (y 0).val; rw [hr]; omega)
      (by show k.val = 1024 * ((t.val - 1) % 2) + k.val; omega)
  · intro k
    exact loginputs_block_apply m c t (ix2 (y 0) k) _ (hi k) (by show _ = 1024 * (t.val / 8) + (y 0).val; rw [hr])
      (by show 1024 + k.val = 1024 * (t.val % 2) + k.val; omega)
  · intro k
    exact weights_block_apply m c (before t) (ix2 k (y 1)) (lo k) _ (by show k.val = 1024 * ((t.val - 1) % 2) + k.val; omega)
      (by show _ = 512 * ((t.val - 1) / 2 % 4) + (y 1).val; rw [hc]; omega)
  · intro k
    exact weights_block_apply m c t (ix2 k (y 1)) (hi k) _ (by show 1024 + k.val = 1024 * (t.val % 2) + k.val; omega)
      (by show _ = 512 * (t.val / 2 % 4) + (y 1).val; rw [hc])
  · intro k
    exact gate_block_apply m c (before t) (ix2 k (y 1)) (lo k) _ (by show k.val = 1024 * ((t.val - 1) % 2) + k.val; omega)
      (by show _ = 512 * ((t.val - 1) / 2 % 4) + (y 1).val; rw [hc]; omega)
  · intro k
    exact gate_block_apply m c t (ix2 k (y 1)) (hi k) _ (by show 1024 + k.val = 1024 * (t.val % 2) + k.val; omega)
      (by show _ = 512 * (t.val / 2 % 4) + (y 1).val; rw [hc])

/-- An index of the array lies in point `t`'s output block iff each coordinate lies in the block's range on its axis. -/
theorem mem_block (t : Fin cfg0.N) (i : S8192x2048.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v16).slice (win0_4.rect t)).set ↔ _
  rw [View.set_slice_whole, Rect.mem_set_unit]
  exact Iff.rfl

/-- Every index (row, col) of the array is in the block written back at the odd point with row-block `row / 1024`
    and column-block `col / 512`. -/
theorem covered (i : S8192x2048.Idx) :
    ∃ t : Fin cfg0.N, (cfg0.win 4).flush t = true ∧ i ∈ ((cfg0.win 4).blk t).view.set := by
  have h0 : (i 0).val < 8192 := (i 0).isLt
  have h1 : (i 1).val < 2048 := (i 1).isLt
  have hN : cfg0.N = 64 := N_0
  obtain ⟨t, ht⟩ : ∃ t : Fin cfg0.N, t.val = 8 * ((i 0).val / 1024) + 2 * ((i 1).val / 512) + 1 :=
    ⟨⟨8 * ((i 0).val / 1024) + 2 * ((i 1).val / 512) + 1, by rw [hN]; omega⟩, rfl⟩
  obtain ⟨-, -, -, -, -, -, -, -, e40, e41⟩ := index_facts t
  refine ⟨t, (flush0_4 t).mpr (by omega), ?_⟩
  rw [mem_block]
  intro a
  match a with
  | ⟨0, _⟩ =>
    show win0_4.index t 0 * 1024 ≤ (i 0).val ∧ (i 0).val < win0_4.index t 0 * 1024 + 1024
    rw [e40]; omega
  | ⟨1, _⟩ =>
    show win0_4.index t 1 * 512 ≤ (i 1).val ∧ (i 1).val < win0_4.index t 1 * 512 + 512
    rw [e41]; omega

/-- So the result array ends holding the NALU function of the argument arrays. -/
theorem final (c : Dev nD) : (dats m 0 c).arrAt 4 cfg0.N = result m c :=
  (dats m 0 c).arrAt_eq_of_cover 4 (result m c) (flushed_eq m c) covered

/-- The kernel's run: every weakly fair execution terminates with the result array at the NALU function of the
    argument arrays, and the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Nalu
-- ==== Proof.RefValue.lean ====
/-
  The reference computes the NALU function.  Read at an index (r, c), its last stage is

      (1/(1 + e^(−g))) · a + (1 − 1/(1 + e^(−g))) · exp(l),

  with g = ∑ₖ x(r,k)·gate(k,c), a = ∑ₖ x(r,k)·w(k,c), l = ∑ₖ log(|x(r,k)| + ε)·w(k,c) and
  w(k,c) = tanh(ŵ(k,c)) · (1/(1 + e^(−m̂(k,c)))), each contraction over all 2048 indices at once.  The quotient
  1/(1 + e^(−g)), written with the float word of 1.0, is the logistic function of g.
-/
import proofs.«151410_j52243982189021_2_alg».proof.Proof.Gen.ReferenceIdeal.Read
import proofs.«151410_j52243982189021_2_alg».proof.Proof.NaluSpec

noncomputable section

open Idealize.ShloMosaic Idealize.ShloMosaic.TcCoe Idealize.SL.Sem Idealize.ShloMosaic.ValueIdx

namespace Cert.ReferenceIdeal.Nalu

open Cert.ReferenceIdeal Cert.ReferenceIdeal.Gen Cert.ReferenceIdeal.Read Cert.Nalu

/-- The quotient the reference writes for the sigmoid is the logistic function. -/
theorem quotient_eq_logistic (s : EReal) : Ideal.div one32 (one32 + Ideal.exp (-s)) = Ideal.logistic s := by
  rw [one32_eq]; rfl

/-- A contraction's left index at (r, ·), k is (r, k); its right index at (·, c), k is (k, c). -/
theorem left_index (i : S8192x2048.Idx) (k : Fin 2048) : lidx_main_v8 i k = ix2 (i 0) k :=
  funext fun a => Fin.ext (by match a with | ⟨0, _⟩ => rfl | ⟨1, _⟩ => rfl)
theorem right_index (i : S8192x2048.Idx) (k : Fin 2048) : ridx_main_v8 i k = ix2 k (i 1) :=
  funext fun a => Fin.ext (by match a with | ⟨0, _⟩ => rfl | ⟨1, _⟩ => rfl)
theorem left_index_log (i : S8192x2048.Idx) (k : Fin 2048) : lidx_main_v13 i k = ix2 (i 0) k :=
  funext fun a => Fin.ext (by match a with | ⟨0, _⟩ => rfl | ⟨1, _⟩ => rfl)
theorem right_index_log (i : S8192x2048.Idx) (k : Fin 2048) : ridx_main_v13 i k = ix2 k (i 1) :=
  funext fun a => Fin.ext (by match a with | ⟨0, _⟩ => rfl | ⟨1, _⟩ => rfl)
theorem left_index_gate (i : S8192x2048.Idx) (k : Fin 2048) : lidx_main_v15 i k = ix2 (i 0) k :=
  funext fun a => Fin.ext (by match a with | ⟨0, _⟩ => rfl | ⟨1, _⟩ => rfl)
theorem right_index_gate (i : S8192x2048.Idx) (k : Fin 2048) : ridx_main_v15 i k = ix2 k (i 1) :=
  funext fun a => Fin.ext (by match a with | ⟨0, _⟩ => rfl | ⟨1, _⟩ => rfl)

/-- The weight stage at an entry. -/
theorem weights_apply (x1 x2 : S2048x2048.Idx → EReal) (i : S2048x2048.Idx) :
    val_main_v7 (F := Ideal) x1 x2 i = weight (x1 i) (x2 i) := by
  rw [val_main_v7_apply, val_main_v0_apply, val_main_v6_apply, val_main_v5_apply, val_main_cst_0_apply, val_main_v4_apply,
    val_main_v3_apply, val_main_cst_apply, val_main_v2_apply, val_main_v1_apply]
  rfl

/-- The log-input stage at an entry. -/
theorem loginputs_apply (x0 : S8192x2048.Idx → EReal) (i : S8192x2048.Idx) :
    val_main_v12 (F := Ideal) x0 i = logIn (x0 i) := by
  rw [val_main_v12_apply, val_main_v11_apply, val_main_v9_apply, val_main_v10_apply, val_main_cst_1_apply]
  rfl

/-- The reference's last stage is the NALU function of the four argument arrays. -/
theorem result_eq (x0 : S8192x2048.Idx → EReal) (x1 x2 x3 : S2048x2048.Idx → EReal) :
    val_main_v26 (F := Ideal) x0 x1 x2 x3 = naluOf x0 x1 x2 x3 := by
  funext i
  rw [val_main_v26_apply, val_main_v22_apply, val_main_v25_apply, val_main_v24_apply, val_main_v21_apply, val_main_v14_apply,
    val_main_v8_apply, val_main_v13_apply, val_main_v23_apply, val_main_cst_4_apply, val_main_v20_apply, val_main_cst_3_apply,
    val_main_v19_apply, val_main_v18_apply, val_main_cst_2_apply, val_main_v17_apply, val_main_v16_apply, val_main_v15_apply]
  simp only [weights_apply, loginputs_apply]
  simp only [left_index, right_index, left_index_log, right_index_log, left_index_gate, right_index_gate, Ideal.addf_def,
    Ideal.mulf_def, Ideal.subf_def, Ideal.hostDivf_def, Ideal.hostUnary_exp_def, Ideal.hostNegf_def, Ideal.negf_def,
    Ideal.ofBits_def, quotient_eq_logistic]
  rfl

end Cert.ReferenceIdeal.Nalu
-- ==== Proof.lean ====
/-
  The certificate of the NALU kernel against its reference.

  Both programs compute, at row r and column c,

      σ(g) · a + (1 − σ(g)) · exp(l),   g = ∑ₖ x(r,k)·gate(k,c),  a = ∑ₖ x(r,k)·w(k,c),  l = ∑ₖ log(|x(r,k)| + ε)·w(k,c),

  with w = tanh(ŵ) · σ(m̂) and σ z = 1/(1 + e^(−z)).  The reference contracts over all 2048 indices k at once.  The
  kernel tiles the output into 1024 × 512 blocks and visits each block at two consecutive grid points: the first
  zeroes three accumulators and adds the products over k < 1024, the second adds the products over k ≥ 1024 and stores
  the gated combination.  On the extended reals a change of float format is the identity and `(0 + s₁) + s₂` is the
  whole sum, so the two agree at every index with no use of the finiteness of the inputs.

  The frames of both printed kernels are the generated ones; the reference's frame is its generated run with the result
  dropped; the idealization rewrote no operation.
-/
import proofs.«151410_j52243982189021_2_alg».proof.Defs
import proofs.«151410_j52243982189021_2_alg».proof.Proof.Gen.Kernel
import proofs.«151410_j52243982189021_2_alg».proof.Proof.Gen.Kernel.Frame
import proofs.«151410_j52243982189021_2_alg».proof.Proof.Gen.KernelIdeal
import proofs.«151410_j52243982189021_2_alg».proof.Proof.Gen.KernelIdeal.Frame
import proofs.«151410_j52243982189021_2_alg».proof.Proof.Gen.KernelIdeal.Value
import proofs.«151410_j52243982189021_2_alg».proof.Proof.Gen.ReferenceIdeal
import proofs.«151410_j52243982189021_2_alg».proof.Proof.Gen.ReferenceIdeal.Run
import proofs.«151410_j52243982189021_2_alg».proof.Proof.Gen.ReferenceIdeal.Read
import proofs.«151410_j52243982189021_2_alg».proof.Proof.Gen.Pre_finite_inputs
import proofs.«151410_j52243982189021_2_alg».proof.Proof.KernelValue
import proofs.«151410_j52243982189021_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel's result array ends at the NALU function of its argument arrays, and the
    reference's at its last stage, which is the same function of arguments that agree. -/
theorem algebraic : Cert.algebraic_KernelIdeal_ReferenceIdeal := by
  intro m ρ m' ρ' _ hagree
  refine ⟨fun c => Cert.KernelIdeal.Nalu.result m c, Cert.KernelIdeal.Nalu.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v26 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
  rw [Cert.ReferenceIdeal.Nalu.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
